-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) (main_arg2 : IVec S4096x4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S4096x4096 : Shape := ⟨2, ![4096, 4096]⟩
abbrev S4096 : Shape := ⟨1, ![4096]⟩
abbrev S128x4096 : Shape := ⟨2, ![128, 4096]⟩
abbrev S128 : Shape := ⟨1, ![128]⟩
abbrev S128x512 : Shape := ⟨2, ![128, 512]⟩
abbrev S512x4096 : Shape := ⟨2, ![512, 4096]⟩
abbrev S128x1 : Shape := ⟨2, ![128, 1]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x4096, .i32⟩
  | .hbm, ⟨3, _⟩ => ⟨S4096x512, .bf16⟩
  | .hbm, ⟨4, _⟩ => ⟨S4096x512, .bf16⟩
  | .hbm, ⟨5, _⟩ => ⟨S4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S4096x512, .bf16⟩
  | .local _ .vmem, ⟨1, _⟩ => ⟨S4096x512, .bf16⟩
  | .local _ .vmem, ⟨2, _⟩ => ⟨S128x4096, .i32⟩
  | .local _ .vmem, ⟨3, _⟩ => ⟨S128x4096, .i32⟩
  | .local _ .vmem, ⟨4, _⟩ => ⟨S128, .f32⟩
  | .local _ .vmem, ⟨5, _⟩ => ⟨S128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  h_S128x512 : 0 < S128x512.numel
  shapeCasts_S128x512_S128x512 : S128x512.ShapeCasts S128x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  transposes_S4096x512_p1_0_S512x4096 : S4096x512.Transposes [1, 0] S512x4096
  reduces_S128x4096_S128 : S128x4096.Reduces [1] S128
  shapeCasts_S128_S128x1 : S128.ShapeCasts S128x1
  broadcasts_S128x1_S128x4096 : S128x1.Broadcasts S128x4096
  inb_S128x4096_S128x4096_0_0 : ∀ a, (![0, 0] : Fin 2 → Nat) a + S128x4096.size a ≤ S128x4096.size a
  h_S128x4096 : 0 < S128x4096.numel
  natLt_1_32 : 1 < 32
  inb_S128_S128_0 : ∀ a, (![0] : Fin 1 → Nat) a + S128.size a ≤ S128.size a
  h_S128 : 0 < S128.numel
  reducesTo_S4096_S_d0 : S4096.ReducesTo [0] S_
  h_S_ : 0 < S_.numel
  dot_S128x512_S512x4096_S128x4096_1_0_0_1_n_n_wf : DotDims.WF S128x512 S512x4096 S128x4096 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x512.size a ≤ S4096x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .bf16 = 32 ∨ (Rect.block (s := S4096x512) S4096x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .i32 = 32 ∨ (Rect.block (s := S4096x4096) S128x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S4096.size a
  hwx0_3 : ∀ i : grid0.Coords, EltTy.bits .f32 = 32 ∨ (Rect.block (s := S4096) S128.size (cc0_transform_3 i) (hinb0_3 i)).WholeWords (EltTy.packing .f32)

variable [Facts₀]

def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf

abbrev win0_0 : Pipeline.Window sig grid0 :=
  Pipeline.Window.ofSpec (Memref.whole main_v0) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x4096 : Shape := ⟨2, ![512, 4096]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x4096, .i32⟩
  | .hbm, ⟨3, _⟩ => ⟨S512x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S512x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S512x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S512x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S_, .i32⟩
  | .hbm, ⟨50, _⟩ => ⟨S4096x4096, .i32⟩
  | .hbm, ⟨51, _⟩ => ⟨S4096x4096, .i1⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  reducesTo_S4096x4096_S_d0_1 : S4096x4096.ReducesTo [0, 1] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.Piece.lean ====
/-
  What the kernel body leaves in the output's staging buffer, as a value.

  At a grid point the body reads rows `128·i … 128·i + 127` of each embedding array (the dynamic slice) and each array
  whole, reads its block of the mask, and stores ONE vector of 128 row sums through the whole output buffer.  The
  buffer therefore ends holding that store's payload: the body's arithmetic applied to those loads.
-/
import proofs.«179486_j42442866819240_1_alg».proof.Proof.Gen.KernelIdeal.Frame
import Idealize.ShloMosaic.Lib.Pipeline.Value

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

namespace Cert.Contrast.Run

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- The 128 rows of a whole array that the body loads at grid coordinates `i`: rows `128·i` onward, all 512 columns. -/
abbrev rowsAt (i : grid0.Coords) (x : Vec F S4096x512 .bf16) : Vec F S128x512 .bf16 :=
  View.ld x (Rect.unit (s := S4096x512) (k0_off1 i) S128x512.size (k0_off1_inb i))

/-- The output's staging buffer after the body: the one covering store's payload, over the body's loads — each
    embedding array's 128 rows and the array whole, and the mask block. -/
theorem out_eq (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S128x4096 .i32) (harg3 : arg3.IsWhole) (arg4 : Memref sig .tc .vmem S128 .f32) (harg4 : arg4.IsWhole)
    (x0 : Vec F S4096x512 .bf16) (x1 : Vec F S4096x512 .bf16) (x2 : Vec F S128x4096 .i32) :
    out0_A_3 (F := F) c i arg1 harg1 arg2 harg2 arg3 harg3 arg4 harg4 x0 x1 x2
      = k0_pay1 (k0_pay6 (rowsAt i x0) x0) (k0_pay7 (rowsAt i x0) x1) (k0_pay8 (rowsAt i x1) x0) (k0_pay9 (rowsAt i x1) x1)
          (k0_pay10 (rowsAt i x0) x0 x1) (k0_pay11 (rowsAt i x1) x0) (k0_pay12 (rowsAt i x1) x1) x2 := by
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_unit_zero hz1]
  simp only [View.readAt_eq_ld, harg1.read_unread, harg2.read_unread, harg3.read_unread, View.ld_unit_zero (S := S4096x512) hz2, View.ld_unit_zero (S := S128x4096) hz2]
  rfl

end Cert.Contrast.Run

end
-- ==== Proof.Spec.lean ====
/-
  The quantity both programs compute, written once as a function of the three argument arrays.

  With `zi, zj : [4096, 512]` and a mask `Q : [4096, 4096]` of 32-bit words, the scaled similarity of a row vector `a`
  with row `c` of an array `b` is `sim a b c = (∑ k, a k · b(c, k)) · 2`.  For row `r`, with `ai, aj` rows `r` of `zi, zj`,
  the two normalisers are `nf a = ∑ c, exp (sim a zi c) + ∑ c, exp (sim a zj c)` for `a = ai` and `a = aj`; the row's loss is
  `∑ c, [Q(r, c) = 1] · (2 · (log (nf ai) + log (nf aj)) − (sim ai zi c + sim ai zj c + sim aj zi c + sim aj zj c))`,
  and the result is `(0 + ∑ r, row loss r) / 8192`.  All sums, products, `exp`, `log` and the quotient are the extended
  reals' (the conventions at the infinities are the instance's own and are the same on both sides, so they are never opened).
-/
import Idealize.ShloMosaic.PureOps.Ideal
import Idealize.ShloMosaic.PureOps.Ideal.Laws
import Idealize.ShloMosaic.Lib.ValueIdx

noncomputable section

namespace Cert.Contrast

open Idealize.ShloMosaic Idealize.ShloMosaic.ValueIdx

/-- The embeddings' shape and the mask's. -/
abbrev SE : Shape := ⟨2, ![4096, 512]⟩
abbrev SQ : Shape := ⟨2, ![4096, 4096]⟩

/-- The inverse temperature, the literal `2.0`. -/
def two : EReal := Ideal.ofBits .f32 0x40000000#32

/-- The scaled similarity of the vector `a` with row `c` of `b`. -/
def sim (a : Fin 512 → EReal) (b : SE.Idx → EReal) (c : Fin 4096) : EReal :=
  (∑ k : Fin 512, a k * b (ix2 c k)) * two

/-- The normaliser of the vector `a`: its exponentiated similarities with every row of `b₁` and of `b₂`, summed. -/
def nf (a : Fin 512 → EReal) (b₁ b₂ : SE.Idx → EReal) : EReal :=
  (∑ c : Fin 4096, Ideal.exp (sim a b₁ c)) + (∑ c : Fin 4096, Ideal.exp (sim a b₂ c))

/-- The indicator of a positive pair: the word is `1`. -/
def pos (w : BitVec 32) : EReal := (((IntOp.cmpi .eq w 1#32).toNat : ℝ) : EReal)

/-- The loss of one row, from the row's two vectors `ai, aj`, the whole arrays and the row's mask words. -/
def rowLoss (ai aj : Fin 512 → EReal) (zi zj : SE.Idx → EReal) (q : Fin 4096 → BitVec 32) : EReal :=
  ∑ c : Fin 4096, pos (q c) *
    (two * (Ideal.log (nf ai zi zj) + Ideal.log (nf aj zi zj))
      - (((sim ai zi c + sim ai zj c) + sim aj zi c) + sim aj zj c))

/-- Row `r` of an array, as a vector. -/
def rowOf (z : SE.Idx → EReal) (r : Fin 4096) : Fin 512 → EReal := fun k => z (ix2 r k)

/-- The loss of row `r` of the batch. -/
def rowLossAt (zi zj : SE.Idx → EReal) (Q : SQ.Idx → BitVec 32) (r : Fin 4096) : EReal :=
  rowLoss (rowOf zi r) (rowOf zj r) zi zj (fun c => Q (ix2 r c))

/-- The result: the rows' losses summed from the zero word, over `8192`. -/
def loss (zi zj : SE.Idx → EReal) (Q : SQ.Idx → BitVec 32) : EReal :=
  Ideal.div (Ideal.ofBits .f32 0x00000000#32 + ∑ r : Fin 4096, rowLossAt zi zj Q r) (Ideal.ofBits .f32 0x46000000#32)

/-- The literal `2.0` is the real `2`. -/
theorem two_eq : two = ((2 : ℝ) : EReal) := by
  unfold two
  simp [Ideal.ofBits, Ideal.ieee, -EReal.coe_mul]; norm_num

/-- The literal `0.5` is the real `1/2`. -/
theorem ofBits_half : Ideal.ofBits .f32 0x3F000000#32 = (((1 : ℝ) / 2 : ℝ) : EReal) := by
  simp [Ideal.ofBits, Ideal.ieee, -EReal.coe_mul]; norm_num

/-- Dividing by the literal `0.5` is multiplying by the literal `2.0`, on every extended real. -/
theorem div_half (x : EReal) : Ideal.div x (Ideal.ofBits .f32 0x3F000000#32) = x * two := by
  rw [ofBits_half, Ideal.div_coe (by norm_num : ((1 : ℝ) / 2) ≠ 0), two_eq]
  norm_num

/-- A one-bit word widened to 32 bits and read signed is the bit read unsigned. -/
theorem toInt_setWidth_bit (b : BitVec 1) : (((b.setWidth 32).toInt : ℝ) : EReal) = ((b.toNat : ℝ) : EReal) := by
  have h : ∀ b : BitVec 1, (b.setWidth 32).toInt = (b.toNat : ℤ) := by decide
  rw [h b]; norm_cast

end Cert.Contrast

end
-- ==== Proof.LibPlain.lean ====
/-
  General facts, at the ideal values, about the plain two-dimensional matrix product and about reductions along the
  rows of a two-dimensional array, stated at indices built from their two coordinates; and two regroupings of a finite
  sum in a commutative monoid (by tiles of equal length; against a mask that keeps one index).
-/
import Idealize.ShloMosaic.Lib.ValueIdx
import Idealize.ShloMosaic.PureOps.Ideal.Laws
import Idealize.ShloMosaic.Lib.Pipeline.Value

noncomputable section

namespace Idealize.ShloMosaic

open ValueIdx

/-- In the plain product `[M,K] × [K,N]` the left operand is read at (row, k) -/
theorem plain_lhsIdx {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- and the right operand at (k, column). -/
theorem plain_rhsIdx {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- The matrix unit's product into a zero accumulator, at (p, q): the sum over k of L(p,k) · R(k,q). -/
theorem Ideal.matmul_plain_zero_apply {M K N : Nat} {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's product, at (p, q): the same sum. -/
theorem Ideal.dotGeneral_plain_apply {M K N : Nat} {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) := by
  rw [Ideal.dotGeneral_apply, ← Equiv.sum_comp (contrEquiv1 (DotDims.plain M K N) K rfl rfl).symm]
  exact Finset.sum_congr rfl fun k _ => by rw [plain_lhsIdx, plain_rhsIdx]

/-- Reducing the second axis of an `[M,N]` array: the source index over row `p` with coordinate `q` inserted is (p, q). -/
theorem lift_rows {M N : Nat} (h : (⟨2, ![M, N]⟩ : Shape).Reduces [1] ⟨1, ![M]⟩) (p : Fin M) (q : Fin N) :
    h.lift (ix1 p) q = ix2 p q := by
  funext a
  apply Fin.ext
  match a with
  | ⟨0, _⟩ => rfl
  | ⟨1, _⟩ => rfl

/-- A lane sum along the rows, at row `p`: the sum over the row. -/
theorem Ideal.multiReduction_add_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ q : Fin N, src (ix2 p q) := by
  rw [Ideal.multiReduction_add_single]
  exact Finset.sum_congr rfl fun q _ => congrArg src (lift_rows h p q)

/-- A lane maximum along the rows, at row `p`: the fold of `max` over the row from the accumulator's value. -/
theorem Ideal.multiReduction_maximumf_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun q => src (ix2 p q)) := by
  rw [Ideal.multiReduction_maximumf_single]
  exact congrArg (fun f => Finset.fold max (FloatOps.ofBits φ acc) f Finset.univ) (funext fun q => congrArg src (lift_rows h p q) : src ∘ h.lift (ix1 p) = fun q => src (ix2 p q))

/-- The same two facts with the accumulator's word spelt as a kernel's text spells it (the -inf word; the zero word), the
    format's proof the literal one. -/
theorem Ideal.multiReduction_maximumf_rows_f32 {M N : Nat} (src : FVec Ideal ⟨2, ![M, N]⟩ .f32) (h : (⟨2, ![M, N]⟩ : Shape).Reduces [1] ⟨1, ![M]⟩)
    (hacc : (0xFF800000#32 : BitVec 32) = 0xFF800000#32) (p : Fin M) :
    multiReduction .maximumf [1] ⟨1, ![M]⟩ src 0xFF800000#32 h (.inl rfl) hacc (ix1 p)
      = (Finset.univ : Finset (Fin N)).fold max (Ideal.ofBits .f32 0xFF800000#32) (fun q => src (ix2 p q)) :=
  Ideal.multiReduction_maximumf_rows src _ h (.inl rfl) hacc p
theorem Ideal.multiReduction_add_rows_f32 {M N : Nat} (src : FVec Ideal ⟨2, ![M, N]⟩ .f32) (h : (⟨2, ![M, N]⟩ : Shape).Reduces [1] ⟨1, ![M]⟩)
    (hacc : (0x00000000#32 : BitVec 32) = 0x00000000#32) (p : Fin M) :
    multiReduction .add [1] ⟨1, ![M]⟩ src 0x00000000#32 h (.inl rfl) hacc (ix1 p) = ∑ q : Fin N, src (ix2 p q) :=
  Ideal.multiReduction_add_rows src _ h (.inl rfl) hacc p

/-- The vector exponential at an index. -/
theorem exp_apply_ideal {s : Shape} {φ : FTy} (a : FVec Ideal s φ) (i : s.Idx) : Idealize.ShloMosaic.exp a i = Ideal.exp (a i) := rfl

/-- A rank-1 vector recast as a column, at (p, q): the vector at p. -/
theorem shapeCast_col {α : Type} {M : Nat} (x : (⟨1, ![M]⟩ : Shape).Idx → α) (h : (⟨1, ![M]⟩ : Shape).ShapeCasts ⟨2, ![M, 1]⟩)
    (p : Fin M) (q : Fin 1) : shapeCast ⟨2, ![M, 1]⟩ x h (ix2 p q) = x (ix1 p) := by
  refine shapeCast_apply x h (ix2 p q) (ix1 p) ?_
  rw [Shape.rowMajor_val_one, Shape.rowMajor_val_two]
  show p.val = p.val * 1 + q.val
  omega

/-- A column broadcast along the rows, at (p, q): the column at p. -/
theorem broadcastTo_col {α : Type} {M N : Nat} (x : (⟨2, ![M, 1]⟩ : Shape).Idx → α) (h : (⟨2, ![M, 1]⟩ : Shape).Broadcasts ⟨2, ![M, N]⟩)
    (p : Fin M) (q : Fin N) : broadcastTo ⟨2, ![M, N]⟩ x h (ix2 p q) = x (ix2 p 0) := by
  refine broadcastTo_apply x h (ix2 p q) (ix2 p 0) fun a => ?_
  match a with
  | ⟨0, _⟩ =>
    show p.val = if M = 1 then 0 else p.val
    split
    · have := p.isLt; omega
    · rfl
  | ⟨1, _⟩ =>
    show (0 : Fin 1).val = if (1 : Nat) = 1 then 0 else q.val
    rw [if_pos rfl]; rfl

namespace Layer
/-- Two linear maps with the clamp `max · z` before each, on one row. -/
def net {a b c : Nat} (z : EReal) (y : Fin a → EReal) (W1 : Fin a → Fin b → EReal) (W2 : Fin b → Fin c → EReal) (q : Fin c) : EReal :=
  ∑ k : Fin b, max (∑ j : Fin a, max (y j) z * W1 j k) z * W2 k q
/-- The softmax of one row, with the maximum taken from `ninf`. -/
def smax {c : Nat} (ninf : EReal) (l : Fin c → EReal) (q : Fin c) : EReal :=
  Ideal.div (Ideal.exp (l q - max ninf (Finset.univ.fold max ninf l)))
    (∑ q' : Fin c, Ideal.exp (l q' - max ninf (Finset.univ.fold max ninf l)))
/-- Both depend on their arguments only through their values. -/
theorem net_congr {a b c : Nat} (z : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    net z y W1 W2 q = net z y' W1' W2' q := by
  rw [funext hy, funext fun j => funext (h1 j), funext fun k => funext (h2 k)]
theorem smax_net_congr {a b c : Nat} (z ninf : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    smax ninf (net z y W1 W2) q = smax ninf (net z y' W1' W2') q := by
  rw [funext hy, funext fun j => funext (h1 j), funext fun k => funext (h2 k)]
end Layer

/-- A sum over `T · K` consecutive indices is the sum over the `T` tiles of the sums over each tile's `K` indices. -/
theorem sum_tiles {α : Type*} [AddCommMonoid α] (T K : Nat) (f : Fin (T * K) → α) :
    ∑ j, f j = ∑ t : Fin T, ∑ k : Fin K, f (finProdFinEquiv (t, k)) :=
  (Fintype.sum_equiv finProdFinEquiv (fun x => f (finProdFinEquiv x)) f (fun _ => rfl)).symm.trans (Fintype.sum_prod_type _)

end Idealize.ShloMosaic

end
-- ==== Proof.Payload.lean ====
/-
  The value the kernel body stores for one row of its block, as the specification's row loss.

  A block of 128 rows of each embedding array is multiplied against the whole of each array (four products, each scaled by the
  literal 2.0): at (p, c) such a product is the scaled similarity of row p of the block with row c of the array.  The
  exponentials of the products are summed along each row and regrouped into the two normalisers of the row; twice the sum of
  their logarithms, less the four similarities, is weighted by the indicator that the mask word is 1 and summed along the row.
-/
import proofs.«179486_j42442866819240_1_alg».proof.Proof.Gen.KernelIdeal.Skeleton
import proofs.«179486_j42442866819240_1_alg».proof.Proof.Spec
import proofs.«179486_j42442866819240_1_alg».proof.Proof.LibPlain
import Idealize.ShloMosaic.Lib.ValueIdx
import Idealize.ShloMosaic.Lib.Pipeline.Value
import Idealize.ShloMosaic.PureOps.Ideal.Laws

noncomputable section

namespace Cert.Contrast.Body

open Idealize.ShloMosaic Idealize.ShloMosaic.ValueIdx Cert.KernelIdeal Cert.KernelIdeal.Gen

/-- The kernel's product record is the plain `[128,512] × [512,4096]` one (the two differ only in their well-formedness proofs). -/
theorem dot_eq_plain : dot_S128x512_S512x4096_S128x4096_1_0_0_1_n_n = DotDims.plain 128 512 4096 := rfl

/-- The transposed whole array at (k, c) is the array at (c, k). -/
theorem transpose_whole_apply (z : FVec Ideal S4096x512 .bf16) (k : Fin 512) (c : Fin 4096) :
    transpose S512x4096 [1, 0] z transposes_S4096x512_p1_0_S512x4096 (ix2 k c) = z (ix2 c k) := by
  refine transpose_apply _ z _ (ix2 k c) (ix2 c k) fun b => ?_
  match b with
  | ⟨0, _⟩ => rfl
  | ⟨1, _⟩ => rfl

/-- A block times the transposed whole array, scaled by the literal 2.0, at (p, c): the scaled similarity of row p of the
    block with row c of the array. -/
theorem simBlock_apply (a : FVec Ideal S128x512 .bf16) (z : FVec Ideal S4096x512 .bf16) (p : Fin 128) (c : Fin 4096) :
    mulf (matmul dot_S128x512_S512x4096_S128x4096_1_0_0_1_n_n none a
        (transpose S512x4096 [1, 0] z transposes_S4096x512_p1_0_S512x4096) (constant (F := Ideal) S128x4096 .f32 0x00000000#32))
      (broadcast S128x4096 (Scalar.ofBits (F := Ideal) .f32 0x40000000#32)) (ix2 p c)
      = sim (fun k => a (ix2 p k)) z c := by
  show FloatOps.matmul dot_S128x512_S512x4096_S128x4096_1_0_0_1_n_n none a
        (transpose S512x4096 [1, 0] z transposes_S4096x512_p1_0_S512x4096) (constant (F := Ideal) S128x4096 .f32 0x00000000#32) (ix2 p c)
      * two = _
  unfold sim
  refine congrArg (· * two) ?_
  refine (Ideal.matmul_plain_zero_apply none a (transpose S512x4096 [1, 0] z transposes_S4096x512_p1_0_S512x4096) p c).trans ?_
  exact Finset.sum_congr rfl fun k _ => congrArg (a (ix2 p k) * ·) (transpose_whole_apply z k c)

/-- The four scaled products of the body, at (p, c). -/
theorem pay6_apply (v3 : Vec Ideal S128x512 .bf16) (v8 : Vec Ideal S4096x512 .bf16) (p : Fin 128) (c : Fin 4096) :
    k0_pay6 (F := Ideal) v3 v8 (ix2 p c) = sim (fun k => v3 (ix2 p k)) v8 c := by
  unfold k0_pay6 k0_pay2 k0_pay4
  rw [shapeCast_self, shapeCast_self]
  exact simBlock_apply v3 v8 p c

theorem pay7_apply (v3 : Vec Ideal S128x512 .bf16) (v10 : Vec Ideal S4096x512 .bf16) (p : Fin 128) (c : Fin 4096) :
    k0_pay7 (F := Ideal) v3 v10 (ix2 p c) = sim (fun k => v3 (ix2 p k)) v10 c := by
  unfold k0_pay7 k0_pay2 k0_pay5
  rw [shapeCast_self, shapeCast_self]
  exact simBlock_apply v3 v10 p c

theorem pay8_apply (v6 : Vec Ideal S128x512 .bf16) (v8 : Vec Ideal S4096x512 .bf16) (p : Fin 128) (c : Fin 4096) :
    k0_pay8 (F := Ideal) v6 v8 (ix2 p c) = sim (fun k => v6 (ix2 p k)) v8 c := by
  unfold k0_pay8 k0_pay3 k0_pay4
  rw [shapeCast_self, shapeCast_self]
  exact simBlock_apply v6 v8 p c

theorem pay9_apply (v6 : Vec Ideal S128x512 .bf16) (v10 : Vec Ideal S4096x512 .bf16) (p : Fin 128) (c : Fin 4096) :
    k0_pay9 (F := Ideal) v6 v10 (ix2 p c) = sim (fun k => v6 (ix2 p k)) v10 c := by
  unfold k0_pay9 k0_pay3 k0_pay5
  rw [shapeCast_self, shapeCast_self]
  exact simBlock_apply v6 v10 p c

/-- The row sum of the exponentials of an array whose entry at (p, c) is `f c`, recast as a column, at (p, 0). -/
theorem expRowSum_apply (x : FVec Ideal S128x4096 .f32) (p : Fin 128) (f : Fin 4096 → EReal) (hx : ∀ c, x (ix2 p c) = f c) :
    multiReduction (F := Ideal) .add [1] S128 (exp x) 0x00000000#32 reduces_S128x4096_S128 (.inl rfl) rfl (ix1 p)
      = ∑ c : Fin 4096, Ideal.exp (f c) := by
  refine (Ideal.multiReduction_add_rows_f32 (exp x) reduces_S128x4096_S128 rfl p).trans ?_
  exact Finset.sum_congr rfl fun c _ => (exp_apply_ideal x (ix2 p c)).trans (congrArg Ideal.exp (hx c))

/-- The first normaliser's column, at (p, 0). -/
theorem pay10_apply (v3 : Vec Ideal S128x512 .bf16) (v8 v10 : Vec Ideal S4096x512 .bf16) (p : Fin 128) :
    k0_pay10 (F := Ideal) v3 v8 v10 (ix2 p 0) = nf (fun k => v3 (ix2 p k)) v8 v10 := by
  unfold k0_pay10 nf
  show shapeCast S128x1 _ shapeCasts_S128_S128x1 (ix2 p 0) + shapeCast S128x1 _ shapeCasts_S128_S128x1 (ix2 p 0) = _
  rw [shapeCast_col, shapeCast_col]
  rw [expRowSum_apply _ p _ (pay6_apply v3 v8 p), expRowSum_apply _ p _ (pay7_apply v3 v10 p)]

/-- The second normaliser's first half as a column at (p, 0), and its second half at p. -/
theorem pay11_apply (v6 : Vec Ideal S128x512 .bf16) (v8 : Vec Ideal S4096x512 .bf16) (p : Fin 128) :
    k0_pay11 (F := Ideal) v6 v8 (ix2 p 0) = ∑ c : Fin 4096, Ideal.exp (sim (fun k => v6 (ix2 p k)) v8 c) := by
  unfold k0_pay11
  show shapeCast S128x1 _ shapeCasts_S128_S128x1 (ix2 p 0) = _
  rw [shapeCast_col]
  exact expRowSum_apply _ p _ (pay8_apply v6 v8 p)

theorem pay12_apply (v6 : Vec Ideal S128x512 .bf16) (v10 : Vec Ideal S4096x512 .bf16) (p : Fin 128) :
    k0_pay12 (F := Ideal) v6 v10 (ix1 p) = ∑ c : Fin 4096, Ideal.exp (sim (fun k => v6 (ix2 p k)) v10 c) := by
  unfold k0_pay12
  exact expRowSum_apply _ p _ (pay9_apply v6 v10 p)

/-- The mask's weight at (p, c): the indicator that the word is 1. -/
theorem mask_apply (v52 : Vec Ideal S128x4096 .i32) (p : Fin 128) (c : Fin 4096) :
    (sitofp .f32 (extui 32 (cmpi .eq v52 (broadcast S128x4096 1#32)) natLt_1_32) : FVec Ideal S128x4096 .f32) (ix2 p c)
      = pos (v52 (ix2 p c)) := by
  show ((((IntOp.cmpi .eq (v52 (ix2 p c)) 1#32).setWidth 32).toInt : ℝ) : EReal) = _
  exact toInt_setWidth_bit _

/-- The stored value at row p, over any seven arrays in the places of the products and the normalisers' parts. -/
theorem pay1_apply (v15 v19 v23 v27 : FVec Ideal S128x4096 .f32) (v34 v37 : FVec Ideal S128x1 .f32) (v39 : FVec Ideal S128 .f32)
    (v52 : Vec Ideal S128x4096 .i32) (p : Fin 128) :
    k0_pay1 (F := Ideal) v15 v19 v23 v27 v34 v37 v39 v52 (ix1 p)
      = ∑ c : Fin 4096, pos (v52 (ix2 p c)) *
          (two * (Ideal.log (v34 (ix2 p 0)) + Ideal.log (v37 (ix2 p 0) + v39 (ix1 p)))
            - (((v15 (ix2 p c) + v19 (ix2 p c)) + v23 (ix2 p c)) + v27 (ix2 p c))) := by
  unfold k0_pay1
  refine (Ideal.multiReduction_add_rows_f32 _ reduces_S128x4096_S128 rfl p).trans ?_
  refine Finset.sum_congr rfl fun c _ => ?_
  show (sitofp .f32 (extui 32 (cmpi .eq v52 (broadcast S128x4096 1#32)) natLt_1_32) : FVec Ideal S128x4096 .f32) (ix2 p c)
      * (broadcastTo S128x4096 _ broadcasts_S128x1_S128x4096 (ix2 p c)
          - (((v15 (ix2 p c) + v19 (ix2 p c)) + v23 (ix2 p c)) + v27 (ix2 p c))) = _
  rw [mask_apply, broadcastTo_col]
  show pos (v52 (ix2 p c)) * (two * (Ideal.log (v34 (ix2 p 0)) + Ideal.log (v37 (ix2 p 0) + shapeCast S128x1 v39 shapeCasts_S128_S128x1 (ix2 p 0)))
          - (((v15 (ix2 p c) + v19 (ix2 p c)) + v23 (ix2 p c)) + v27 (ix2 p c))) = _
  rw [shapeCast_col]

/-- The kernel body's stored value at row p is the specification's row loss of the loaded blocks. -/
theorem payload_apply (v3 v6 : Vec Ideal S128x512 .bf16) (v8 v10 : Vec Ideal S4096x512 .bf16) (v52 : Vec Ideal S128x4096 .i32) (p : Fin 128) :
    k0_pay1 (F := Ideal) (k0_pay6 v3 v8) (k0_pay7 v3 v10) (k0_pay8 v6 v8) (k0_pay9 v6 v10) (k0_pay10 v3 v8 v10) (k0_pay11 v6 v8) (k0_pay12 v6 v10) v52 (ix1 p)
      = Cert.Contrast.rowLoss (fun k => v3 (ix2 p k)) (fun k => v6 (ix2 p k)) v8 v10 (fun c => v52 (ix2 p c)) := by
  refine (pay1_apply _ _ _ _ _ _ _ v52 p).trans ?_
  unfold rowLoss
  refine Finset.sum_congr rfl fun c _ => ?_
  rw [pay6_apply, pay7_apply, pay8_apply, pay9_apply, pay10_apply, pay11_apply, pay12_apply]
  rfl

end Cert.Contrast.Body

end
-- ==== Proof.Blocks.lean ====
/-
  From the body's stored vector to the result array of the region.

  At grid point `t` the two embedding windows hold their whole arrays (their block index never moves), the mask window
  holds rows `128·t … 128·t + 127` of the mask, and the body's dynamic slice reads the same 128 rows of each
  embedding array.  So entry `p` of the vector the body stores is the loss of row `128·t + p` of the batch, and that
  vector is written back as block `t` of the result array.  The 32 blocks tile the 4096 rows (row `r` lies in block
  `r / 128`), hence after the region the result array holds, at `r`, the loss of row `r`.
-/
import proofs.«179486_j42442866819240_1_alg».proof.Proof.Piece
import proofs.«179486_j42442866819240_1_alg».proof.Proof.Payload
import proofs.«179486_j42442866819240_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Contrast

namespace Cert.Contrast.Run

/-- The row of the batch that row `p` of the block at grid coordinates `i` is. -/
def rowIx (i : grid0.Coords) (p : Fin 128) : Fin 4096 :=
  ⟨(i 0).val * 128 + p.val, by have h : (i 0).val < 32 := (i 0).isLt; have := p.isLt; omega⟩

/-- The 128 rows loaded at coordinates `i`, at (p, k): the array at (128·i + p, k). -/
theorem rowsAt_apply (i : grid0.Coords) (x : Vec Ideal S4096x512 .bf16) (p : Fin 128) (k : Fin 512) :
    rowsAt i x (ix2 p k) = x (ix2 (rowIx i p) k) := by
  show x ((Rect.unit (s := S4096x512) (k0_off1 i) S128x512.size (k0_off1_inb i)).idx (ix2 p k)) = _
  refine congrArg x (funext fun a => Fin.ext ?_)
  match a with
  | ⟨0, _⟩ =>
    have h : (i 0).val < 32 := (i 0).isLt
    have e : (BitVec.ofNat 32 (i 0).val * 128#32).toNat = (i 0).val * 128 := by
      rw [BitVec.toNat_mul, BitVec.toNat_ofNat, BitVec.toNat_ofNat]
      norm_num
      omega
    show (BitVec.ofNat 32 (i 0).val * 128#32).toNat + 1 * p.val = (i 0).val * 128 + p.val
    rw [e]; omega
  | ⟨1, _⟩ =>
    show 0 + 1 * k.val = k.val
    omega

/-- The output's staging buffer after the body at coordinates `i`, at row `p`: the loss of row `128·i + p` of the two
    whole arrays the body was given, against row `p` of the mask block it was given. -/
theorem out_apply (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S128x4096 .i32) (harg3 : arg3.IsWhole) (arg4 : Memref sig .tc .vmem S128 .f32) (harg4 : arg4.IsWhole)
    (x0 x1 : Vec Ideal S4096x512 .bf16) (x2 : Vec Ideal S128x4096 .i32) (p : Fin 128) :
    out0_A_3 (F := Ideal) c i arg1 harg1 arg2 harg2 arg3 harg3 arg4 harg4 x0 x1 x2 (ix1 p)
      = rowLoss (rowOf x0 (rowIx i p)) (rowOf x1 (rowIx i p)) x0 x1 (fun q => x2 (ix2 p q)) := by
  rw [out_eq]
  refine (Body.payload_apply (rowsAt i x0) (rowsAt i x1) x0 x1 x2 p).trans ?_
  have e0 : (fun k => rowsAt i x0 (ix2 p k)) = rowOf x0 (rowIx i p) := funext fun k => rowsAt_apply i x0 p k
  have e1 : (fun k => rowsAt i x1 (ix2 p k)) = rowOf x1 (rowIx i p) := funext fun k => rowsAt_apply i x1 p k
  rw [e0, e1]

variable (m : (ℓ : Loc nD τ sig) → Buf (Elt Ideal) ℓ)

/-- The printed index maps, decided once over the grid: the embedding windows stay at block (0, 0), the mask's and the
    output's block index is the point, and the point's one coordinate is the point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 1) = t.val ∧ ((grid0.coords t) 0).val = t.val :=
  (by decide +kernel : ∀ t : Fin grid0.N, _)

/-- Each embedding window's block is its whole array, at every point. -/
theorem iblk0_eq (c : Dev nD) (t : Fin cfg0.N) : (iblk m c 0 t : Vec Ideal S4096x512 .bf16) = V m c main_v0 := by
  funext y
  unfold iblk
  rw [View.read_apply]
  show V m c main_v0 (((cfg0.win 0).blk t).view.emb y) = V m c main_v0 y
  refine congrArg (V m c main_v0) (funext fun a => Fin.ext ?_)
  obtain ⟨e0, e1, -⟩ := idx_facts t
  match a with
  | ⟨0, _⟩ => show win0_0.index t (0 : Fin 2) * 4096 + 1 * (y 0).val = (y 0).val; rw [e0]; omega
  | ⟨1, _⟩ => show win0_0.index t (1 : Fin 2) * 512 + 1 * (y 1).val = (y 1).val; rw [e1]; omega

theorem iblk1_eq (c : Dev nD) (t : Fin cfg0.N) : (iblk m c 1 t : Vec Ideal S4096x512 .bf16) = V m c main_v1 := by
  funext y
  unfold iblk
  rw [View.read_apply]
  show V m c main_v1 (((cfg0.win 1).blk t).view.emb y) = V m c main_v1 y
  refine congrArg (V m c main_v1) (funext fun a => Fin.ext ?_)
  obtain ⟨-, -, e0, e1, -⟩ := idx_facts t
  match a with
  | ⟨0, _⟩ => show win0_1.index t (0 : Fin 2) * 4096 + 1 * (y 0).val = (y 0).val; rw [e0]; omega
  | ⟨1, _⟩ => show win0_1.index t (1 : Fin 2) * 512 + 1 * (y 1).val = (y 1).val; rw [e1]; omega

/-- The mask's block at point `t`, at (p, q): the mask at (128·t + p, q). -/
theorem iblk2_apply (c : Dev nD) (t : Fin cfg0.N) (p : Fin 128) (q : Fin 4096) :
    (iblk m c 2 t : Vec Ideal S128x4096 .i32) (ix2 p q) = V m c main_arg2 (ix2 (rowIx (grid0.coords t) p) q) := by
  unfold iblk
  rw [View.read_apply]
  show V m c main_arg2 (((cfg0.win 2).blk t).view.emb (ix2 p q)) = V m c main_arg2 (ix2 (rowIx (grid0.coords t) p) q)
  refine congrArg (V m c main_arg2) (funext fun a => Fin.ext ?_)
  obtain ⟨-, -, -, -, e0, e1, -, eg⟩ := idx_facts t
  match a with
  | ⟨0, _⟩ => show win0_2.index t (0 : Fin 2) * 128 + 1 * p.val = ((grid0.coords t) 0).val * 128 + p.val; rw [e0, eg]; omega
  | ⟨1, _⟩ => show win0_2.index t (1 : Fin 2) * 4096 + 1 * q.val = q.val; rw [e1]; omega

/-- What the output's staging buffer holds after point `t`, at row `p`: the loss of row `128·t + p` of the batch. -/
theorem outsAt_apply (c : Dev nD) (t : Fin cfg0.N) (p : Fin 128) :
    outsAt0 m c t (ix1 p) = rowLossAt (V m c main_v0) (V m c main_v1) (V m c main_arg2) (rowIx (grid0.coords t) p) := by
  unfold outsAt0
  refine (out_apply c (grid0.coords t) (ms0_0 t) (hs0_0 t) (ms0_1 t) (hs0_1 t) (ms0_2 t) (hs0_2 t) (ms0_3 t) (hs0_3 t)
    (iblk m c 0 t) (iblk m c 1 t) (iblk m c 2 t) p).trans ?_
  unfold rowLossAt
  rw [iblk0_eq, iblk1_eq]
  exact congrArg (rowLoss _ _ _ _) (funext fun q => iblk2_apply m c t p q)

/-- The result array `[4096]` both programs reduce: entry `r` is the loss of row `r`. -/
def rowLosses (zi zj : SE.Idx → EReal) (Q : SQ.Idx → BitVec 32) : S4096.Idx → EReal := fun i => rowLossAt zi zj Q (i 0)

/-- What point `t` writes back is block `t` of the rows' losses of the arrays as the region finds them. -/
theorem flushed_eq (c : Dev nD) (t : Fin cfg0.N) :
    (dats m 0 c).flushed 3 t
      = ((cfg0.win 3).blk t).view.read (Elt Ideal) (rowLosses (V m c main_v0) (V m c main_v1) (V m c main_arg2)) := by
  show (cfg0.win 3).cut (grid0.coords t) ((dats m 0 c).after 3 t) = _
  rw [after0_3]
  funext y
  obtain ⟨p, rfl⟩ : ∃ p : Fin 128, y = ix1 p := ⟨y 0, eq_ix1 y⟩
  rw [View.read_apply]
  refine (outsAt_apply m c t p).trans ?_
  show rowLossAt _ _ _ _ = rowLossAt _ _ _ ((((cfg0.win 3).blk t).view.emb (ix1 p)) 0)
  refine congrArg (rowLossAt _ _ _) (Fin.ext ?_)
  obtain ⟨-, -, -, -, -, -, e3, eg⟩ := idx_facts t
  show ((grid0.coords t) 0).val * 128 + p.val = win0_3.index t (0 : Fin 1) * 128 + 1 * p.val
  rw [e3, eg]; omega

/-- Every row is in some point's block: row `r` in block `r / 128`. -/
theorem covered (i : S4096.Idx) : ∃ t : Fin cfg0.N, (cfg0.win 3).flush t = true ∧ i ∈ ((cfg0.win 3).blk t).view.set := by
  have hN : cfg0.N = 32 := N_0
  have hi : (i 0).val < 4096 := (i 0).isLt
  obtain ⟨t, ht⟩ : ∃ t : Fin cfg0.N, t.val = (i 0).val / 128 := ⟨⟨(i 0).val / 128, by rw [hN]; omega⟩, rfl⟩
  refine ⟨t, flush0_3 t, ?_⟩
  show i ∈ ((View.whole main_v2).slice (win0_3.rect t)).set
  rw [View.set_slice_whole, Rect.mem_set_unit]
  intro a
  obtain ⟨-, -, -, -, -, -, e3, -⟩ := idx_facts t
  match a with
  | ⟨0, _⟩ =>
    show win0_3.index t (0 : Fin 1) * 128 ≤ (i 0).val ∧ (i 0).val < win0_3.index t (0 : Fin 1) * 128 + 128
    rw [e3, ht]; omega

/-- So the result array ends holding the rows' losses. -/
theorem final (c : Dev nD) :
    (dats m 0 c).arrAt 3 cfg0.N = rowLosses (V m c main_v0) (V m c main_v1) (V m c main_arg2) :=
  (dats m 0 c).arrAt_eq_of_cover 3 _ (fun t _ => flushed_eq m c t) covered

end Cert.Contrast.Run

end
-- ==== Proof.Tail.lean ====
/-
  The host operations around the kernel's region.

  Before the region the program narrows its two float arguments; at the ideal values a format change is the identity,
  so the region finds the arguments themselves in the two narrowed buffers.  After the region the program sums the
  region's output array from the zero word into a scalar and divides it by the literal 8192.0: with the output array
  holding G, the result is (0 + ∑ r, G r) / 8192.
-/
import proofs.«179486_j42442866819240_1_alg».proof.Proof.Gen.KernelIdeal.Frame
import proofs.«179486_j42442866819240_1_alg».proof.Proof.Spec
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.Contrast.Host

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable (m : (ℓ : Loc nD τ sig) → Buf (Elt Ideal) ℓ)

/-- The first narrowed buffer, as the region finds it, holds the first argument. -/
theorem entry_v0 (c : Dev nD) : V m c main_v0 = m ((c : Thread nD τ).loc main_arg0) := by
  show StableHlo.after hostOps0 (fun b => m (c, b)) (Proc.devRef .tc main_v0) = _
  after_results
  rfl

/-- The second narrowed buffer holds the second argument. -/
theorem entry_v1 (c : Dev nD) : V m c main_v1 = m ((c : Thread nD τ).loc main_arg1) := by
  show StableHlo.after hostOps0 (fun b => m (c, b)) (Proc.devRef .tc main_v1) = _
  after_results
  rfl

/-- A sum over a rank-1 index set is the sum over its coordinate. -/
theorem sum_idx1 {n : Nat} (f : (⟨1, ![n]⟩ : Shape).Idx → EReal) : ∑ j, f j = ∑ r : Fin n, f (ix1 r) :=
  Fintype.sum_equiv ⟨fun j => j 0, ix1, fun j => (eq_ix1 j).symm, fun _ => rfl⟩ f (fun r => f (ix1 r))
    (fun j => congrArg f (eq_ix1 j))

/-- The sum of an array from the zero word over the literal 8192.0, read at the scalar's index. -/
theorem tail_value (G : S4096.Idx → EReal) :
    Host.divf (F := Ideal) (Host.reduceAdd (F := Ideal) G (constant (F := Ideal) S_ .f32 0x00000000#32) reducesTo_S4096_S_d0 h_S_)
        (constant (F := Ideal) S_ .f32 0x46000000#32)
      = fun _ => Ideal.div (Ideal.ofBits .f32 0x00000000#32 + ∑ r : Fin 4096, G (ix1 r)) (Ideal.ofBits .f32 0x46000000#32) := by
  funext i
  show Ideal.div (Host.reduceAdd (F := Ideal) G (constant (F := Ideal) S_ .f32 0x00000000#32) reducesTo_S4096_S_d0 h_S_ i)
    (Ideal.ofBits .f32 0x46000000#32) = _
  refine congrArg (fun s => Ideal.div s (Ideal.ofBits .f32 0x46000000#32)) ?_
  simp only [Host.reduceAdd, Ideal.hostReduceAdd_def]
  refine (Ideal.hostReduceAdd_total reducesTo_S4096_S_d0 (fun b => b.elim0) G _ i).trans ?_
  exact congrArg (_ + ·) (sum_idx1 G)

/-- The program's result after the host operations that follow the region, from what the region's output array holds. -/
theorem tail_of_final (c : Dev nD) (G : S4096.Idx → EReal) (hfin : (dats m 0 c).arrAt 3 cfg0.N = G) :
    Pipeline.afterTail₀ cfgs (dats m) 0 (V0 m) [hostOps1] c main_v4
      = fun _ => Ideal.div (Ideal.ofBits .f32 0x00000000#32 + ∑ r : Fin 4096, G (ix1 r)) (Ideal.ofBits .f32 0x46000000#32) := by
  unfold Pipeline.afterTail₀
  show StableHlo.after hostOps1 _ (Proc.devRef .tc main_v4) = _
  after_results
  exact (congrArg (fun x : S4096.Idx → EReal => Host.divf (F := Ideal)
      (Host.reduceAdd (F := Ideal) x (constant (F := Ideal) S_ .f32 0x00000000#32) reducesTo_S4096_S_d0 h_S_)
      (constant (F := Ideal) S_ .f32 0x46000000#32))
    ((Pipeline.withArrays_arr spec0 launch0.win.arr_inj c _ _ 3).trans hfin)).trans (tail_value G)

end Cert.Contrast.Host

end
-- ==== Proof.Result.lean ====
/-
  The idealized kernel program's run, with its result named.

  After the region the result array holds the rows' losses; the host operations after the region sum it from the
  zero word and divide by the literal 8192.0, which is the specified loss of the arrays as the region found them; and
  the region found the two embedding arrays as launched (the host conversions before it change the format only,
  which at the exact values is the identity) and the mask as launched.
-/
import proofs.«179486_j42442866819240_1_alg».proof.Proof.Blocks
import proofs.«179486_j42442866819240_1_alg».proof.Proof.Tail

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Contrast

namespace Cert.Contrast.Run

variable (m : (ℓ : Loc nD τ sig) → Buf (Elt Ideal) ℓ) (ρ : Dev nD → PrngReg)

/-- The program's result buffer after the host operations that follow the region: the specified loss of the launch
    contents of the three arguments. -/
theorem result_eq (c : Dev nD) :
    Pipeline.afterTail₀ cfgs (dats m) 0 (V0 m) [hostOps1] c main_v4
      = fun _ => loss (m ((c : Thread nD τ).loc main_arg0)) (m ((c : Thread nD τ).loc main_arg1)) (m ((c : Thread nD τ).loc main_arg2)) := by
  refine (Host.tail_of_final m c _ (final m c)).trans ?_
  rw [Host.entry_v0 m c, Host.entry_v1 m c, V_main_arg2 m c]
  rfl

/-- Every weakly fair execution of the idealized kernel program terminates with its result at the specified loss of
    the arguments and the arguments unchanged. -/
theorem run_value : θ_run defs (onTc (τ := τ) (main (F := Ideal))) ⟨m, fun _ => 0, ρ⟩ (fun r => ∀ c : Dev nD,
      r.2.mem ((c.tc : Thread nD τ).loc main_v4)
        = (fun _ => loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).1 2).trans (((dats m 0 c).arrAt_in 2 rfl _).trans ((A_eq m c 2).trans (V_main_arg2 m c)))⟩)
    (run_main m ρ)

end Cert.Contrast.Run

end
-- ==== Proof.RefValue.lean ====
/-
  The reference program computes the specified quantity.

  Read one operation at a time, the reference forms four similarity matrices: each is a product of one array with the
  transpose of another, divided by the literal 0.5, which on the extended reals is the product with the literal 2.0; so
  entry (r, c) is the scaled similarity of row r of the left array with row c of the right one.  Exponentiating and
  summing each row from the zero word gives the two halves of each normaliser; their logarithms are added, doubled and
  spread along the rows; the four similarities are added in the written order and subtracted; the mask word is compared
  with 1 and the bit read as a number; the products are summed over all index pairs from the zero word (a sum over
  pairs is the double sum over rows and columns) and divided by the literal 8192.0.
-/
import proofs.«179486_j42442866819240_1_alg».proof.Proof.Gen.ReferenceIdeal.Read
import proofs.«179486_j42442866819240_1_alg».proof.Proof.Spec
import Idealize.ShloMosaic.Lib.ValueIdx
import Idealize.ShloMosaic.Lib.Pipeline.Value
import Idealize.ShloMosaic.PureOps.Ideal.Laws

noncomputable section

namespace Cert.Contrast.Ref

open Cert.ReferenceIdeal Cert.ReferenceIdeal.Read Idealize.ShloMosaic Idealize.ShloMosaic.ValueIdx Cert.Contrast

/-- The embeddings' and the mask's contents at the ideal values. -/
abbrev E : Type := (⟨S4096x512, .f32⟩ : BufTy).Contents (Elt Ideal)
abbrev M : Type := (⟨S4096x4096, .i32⟩ : BufTy).Contents (Elt Ideal)

/-- A product with a transposed array, over the literal 0.5, at (r, c): the scaled similarity of row r of the left
    array with row c of the array that was transposed.  The left operand is read at li k = (r, k), the transposed
    array T at ri k, and T reads b at ti, with ti (ri k) = (c, k). -/
theorem sim_of_dot (a b : SE.Idx → EReal) (r c : Fin 4096)
    (li : Fin 512 → S4096x512.Idx) (ri : Fin 512 → S512x4096.Idx) (T : S512x4096.Idx → EReal)
    (ti : S512x4096.Idx → S4096x512.Idx)
    (hl : ∀ k, li k = ix2 r k) (hT : ∀ j, T j = b (ti j)) (hr : ∀ k, ti (ri k) = ix2 c k) :
    Ideal.div (∑ k : Fin 512, a (li k) * T (ri k)) (Ideal.ofBits .f32 0x3F000000#32) = sim (rowOf a r) b c := by
  rw [div_half]
  unfold sim rowOf
  refine congrArg (· * two) (Finset.sum_congr rfl fun k _ => ?_)
  rw [hl k, hT, hr k]

/-- The four similarity matrices at (r, c). -/
theorem v3_eq (x0 : E) (r c : Fin 4096) : val_main_v3 (F := Ideal) x0 (ix2 r c) = sim (rowOf x0 r) x0 c := by
  rw [val_main_v3_apply, val_main_v2_apply, val_main_cst_apply, val_main_v1_apply]
  exact sim_of_dot x0 x0 r c (lidx_main_v1 (ix2 r c)) (ridx_main_v1 (ix2 r c)) (val_main_v0 (F := Ideal) x0) idx_main_v0
    (fun k => funext fun a => match a with | ⟨0, _⟩ => rfl | ⟨1, _⟩ => rfl) (val_main_v0_apply x0)
    (fun k => funext fun a => match a with | ⟨0, _⟩ => rfl | ⟨1, _⟩ => rfl)

theorem v7_eq (x0 x1 : E) (r c : Fin 4096) : val_main_v7 (F := Ideal) x0 x1 (ix2 r c) = sim (rowOf x0 r) x1 c := by
  rw [val_main_v7_apply, val_main_v6_apply, val_main_cst_0_apply, val_main_v5_apply]
  exact sim_of_dot x0 x1 r c (lidx_main_v5 (ix2 r c)) (ridx_main_v5 (ix2 r c)) (val_main_v4 (F := Ideal) x1) idx_main_v4
    (fun k => funext fun a => match a with | ⟨0, _⟩ => rfl | ⟨1, _⟩ => rfl) (val_main_v4_apply x1)
    (fun k => funext fun a => match a with | ⟨0, _⟩ => rfl | ⟨1, _⟩ => rfl)

theorem v11_eq (x0 x1 : E) (r c : Fin 4096) : val_main_v11 (F := Ideal) x0 x1 (ix2 r c) = sim (rowOf x1 r) x0 c := by
  rw [val_main_v11_apply, val_main_v10_apply, val_main_cst_1_apply, val_main_v9_apply]
  exact sim_of_dot x1 x0 r c (lidx_main_v9 (ix2 r c)) (ridx_main_v9 (ix2 r c)) (val_main_v8 (F := Ideal) x0) idx_main_v8
    (fun k => funext fun a => match a with | ⟨0, _⟩ => rfl | ⟨1, _⟩ => rfl) (val_main_v8_apply x0)
    (fun k => funext fun a => match a with | ⟨0, _⟩ => rfl | ⟨1, _⟩ => rfl)

theorem v15_eq (x1 : E) (r c : Fin 4096) : val_main_v15 (F := Ideal) x1 (ix2 r c) = sim (rowOf x1 r) x1 c := by
  rw [val_main_v15_apply, val_main_v14_apply, val_main_cst_2_apply, val_main_v13_apply]
  exact sim_of_dot x1 x1 r c (lidx_main_v13 (ix2 r c)) (ridx_main_v13 (ix2 r c)) (val_main_v12 (F := Ideal) x1) idx_main_v12
    (fun k => funext fun a => match a with | ⟨0, _⟩ => rfl | ⟨1, _⟩ => rfl) (val_main_v12_apply x1)
    (fun k => funext fun a => match a with | ⟨0, _⟩ => rfl | ⟨1, _⟩ => rfl)

/-- A row sum from the zero word of an array V whose entry (r, c) is f c: the sum of f.  The row is read at ji c = (r, c). -/
theorem rowsum_of (r : Fin 4096) (f : Fin 4096 → EReal) (V : S4096x4096.Idx → EReal) (ji : Fin 4096 → S4096x4096.Idx)
    (hj : ∀ c, ji c = ix2 r c) (hV : ∀ c, V (ix2 r c) = f c) :
    Ideal.ofBits .f32 0x00000000#32 + ∑ c : Fin 4096, V (ji c) = ∑ c : Fin 4096, f c := by
  rw [Ideal.ofBits_zero_f32, zero_add]
  exact Finset.sum_congr rfl fun c _ => by rw [hj c, hV c]

/-- The four row sums of exponentials at row r. -/
theorem v17_eq (x0 : E) (r : Fin 4096) :
    val_main_v17 (F := Ideal) x0 (ix1 r) = ∑ c : Fin 4096, Ideal.exp (sim (rowOf x0 r) x0 c) := by
  rw [val_main_v17_apply, val_main_cst_3_apply]
  exact rowsum_of r _ (val_main_v16 (F := Ideal) x0) (idx_main_v17 (ix1 r))
    (fun c => funext fun a => match a with | ⟨0, _⟩ => rfl | ⟨1, _⟩ => rfl)
    (fun c => by rw [val_main_v16_apply, v3_eq]; rfl)

theorem v19_eq (x0 x1 : E) (r : Fin 4096) :
    val_main_v19 (F := Ideal) x0 x1 (ix1 r) = ∑ c : Fin 4096, Ideal.exp (sim (rowOf x0 r) x1 c) := by
  rw [val_main_v19_apply, val_main_cst_4_apply]
  exact rowsum_of r _ (val_main_v18 (F := Ideal) x0 x1) (idx_main_v19 (ix1 r))
    (fun c => funext fun a => match a with | ⟨0, _⟩ => rfl | ⟨1, _⟩ => rfl)
    (fun c => by rw [val_main_v18_apply, v7_eq]; rfl)

theorem v22_eq (x0 x1 : E) (r : Fin 4096) :
    val_main_v22 (F := Ideal) x0 x1 (ix1 r) = ∑ c : Fin 4096, Ideal.exp (sim (rowOf x1 r) x0 c) := by
  rw [val_main_v22_apply, val_main_cst_5_apply]
  exact rowsum_of r _ (val_main_v21 (F := Ideal) x0 x1) (idx_main_v22 (ix1 r))
    (fun c => funext fun a => match a with | ⟨0, _⟩ => rfl | ⟨1, _⟩ => rfl)
    (fun c => by rw [val_main_v21_apply, v11_eq]; rfl)

theorem v24_eq (x1 : E) (r : Fin 4096) :
    val_main_v24 (F := Ideal) x1 (ix1 r) = ∑ c : Fin 4096, Ideal.exp (sim (rowOf x1 r) x1 c) := by
  rw [val_main_v24_apply, val_main_cst_6_apply]
  exact rowsum_of r _ (val_main_v23 (F := Ideal) x1) (idx_main_v24 (ix1 r))
    (fun c => funext fun a => match a with | ⟨0, _⟩ => rfl | ⟨1, _⟩ => rfl)
    (fun c => by rw [val_main_v23_apply, v15_eq]; rfl)

/-- The two normalisers at row r. -/
theorem v20_eq (x0 x1 : E) (r : Fin 4096) : val_main_v20 (F := Ideal) x0 x1 (ix1 r) = nf (rowOf x0 r) x0 x1 := by
  rw [val_main_v20_apply, v17_eq, v19_eq]; rfl

theorem v25_eq (x0 x1 : E) (r : Fin 4096) : val_main_v25 (F := Ideal) x0 x1 (ix1 r) = nf (rowOf x1 r) x0 x1 := by
  rw [val_main_v25_apply, v22_eq, v24_eq]; rfl

/-- The doubled sum of the two logarithms at row r. -/
theorem v30_eq (x0 x1 : E) (r : Fin 4096) :
    val_main_v30 (F := Ideal) x0 x1 (ix1 r)
      = two * (Ideal.log (nf (rowOf x0 r) x0 x1) + Ideal.log (nf (rowOf x1 r) x0 x1)) := by
  rw [val_main_v30_apply, val_main_v29_apply, val_main_cst_7_apply, val_main_v28_apply, val_main_v26_apply,
    val_main_v27_apply, v20_eq, v25_eq]
  rfl

/-- Spread along the rows, at (r, c). -/
theorem v35_eq (x0 x1 : E) (r c : Fin 4096) :
    val_main_v35 (F := Ideal) x0 x1 (ix2 r c)
      = two * (Ideal.log (nf (rowOf x0 r) x0 x1) + Ideal.log (nf (rowOf x1 r) x0 x1)) := by
  rw [val_main_v35_apply, val_main_v31_apply]
  refine (congrArg (val_main_v30 (F := Ideal) x0 x1) (?_ : _ = ix1 r)).trans (v30_eq x0 x1 r)
  exact funext fun a => match a with | ⟨0, _⟩ => rfl

/-- The four similarities added in the written order, at (r, c). -/
theorem v34_eq (x0 x1 : E) (r c : Fin 4096) :
    val_main_v34 (F := Ideal) x0 x1 (ix2 r c)
      = ((sim (rowOf x0 r) x0 c + sim (rowOf x0 r) x1 c) + sim (rowOf x1 r) x0 c) + sim (rowOf x1 r) x1 c := by
  rw [val_main_v34_apply, val_main_v33_apply, val_main_v32_apply, v3_eq, v7_eq, v11_eq, v15_eq]
  rfl

/-- The mask at an index: the indicator that the word is 1. -/
theorem v39_eq (x2 : M) (i : S4096x4096.Idx) : val_main_v39 (F := Ideal) x2 i = pos (x2 i) := by
  rw [val_main_v39_apply, val_main_v38_apply, val_main_v37_apply, val_main_c_apply]
  rfl

/-- The summand at (r, c). -/
theorem v40_eq (x0 x1 : E) (x2 : M) (r c : Fin 4096) :
    val_main_v40 (F := Ideal) x0 x1 x2 (ix2 r c)
      = pos (x2 (ix2 r c)) * (two * (Ideal.log (nf (rowOf x0 r) x0 x1) + Ideal.log (nf (rowOf x1 r) x0 x1))
          - (((sim (rowOf x0 r) x0 c + sim (rowOf x0 r) x1 c) + sim (rowOf x1 r) x0 c) + sim (rowOf x1 r) x1 c)) := by
  rw [val_main_v40_apply, val_main_v36_apply, v39_eq, v35_eq, v34_eq]
  rfl

/-- The reference's result is the specified loss of its three arguments. -/
theorem reference_eq (x0 x1 : (⟨S4096x512, .f32⟩ : BufTy).Contents (Elt Ideal)) (x2 : (⟨S4096x4096, .i32⟩ : BufTy).Contents (Elt Ideal)) :
    Cert.ReferenceIdeal.Read.val_main_v42 (F := Ideal) x0 x1 x2 = fun _ => Cert.Contrast.loss x0 x1 x2 := by
  funext i
  rw [val_main_v42_apply, val_main_v41_apply, val_main_cst_9_apply, val_main_cst_8_apply, sum_idx2]
  unfold loss rowLossAt rowLoss
  refine congrArg (fun s => Ideal.div (Ideal.ofBits .f32 0x00000000#32 + s) (Ideal.ofBits .f32 0x46000000#32)) ?_
  exact Finset.sum_congr rfl fun r _ => Finset.sum_congr rfl fun c _ => v40_eq x0 x1 x2 r c

end Cert.Contrast.Ref

end
-- ==== Proof.lean ====
/-
  The kernel computes a structural contrastive loss tile by tile; the reference computes it on whole arrays.

  Both form the four similarity matrices `z·zᵀ` of the two embedding arrays scaled by the inverse temperature (the kernel
  multiplies by 2, the reference divides by 0.5: the same on every extended real), exponentiate and sum them along rows
  into two normalisers per row, and weight `2·(log nf₁ + log nf₂) − (the four similarities)` by the indicator that the
  mask word is 1.  The kernel sums each row of a 128-row block in its body, writes the 32 blocks of row sums to an array
  of 4096 entries, and the host sums that array and divides by 8192; the reference sums all `4096 × 4096` entries at
  once and divides by 8192.  A sum over all index pairs is the sum over rows of the sums over columns, in any
  commutative monoid, so the two results are one extended real.  No finiteness of the inputs is used.

  The frames of the two kernel programs are the generated ones, the reference's frame is its generated run; the ideal
  pass rewrote nothing, so the idealization statement is trivial; the value statement pairs the kernel program's run
  with its result named (the specified loss of the launch contents) with the reference's run read as the same loss.
-/
import proofs.«179486_j42442866819240_1_alg».proof.Defs
import proofs.«179486_j42442866819240_1_alg».proof.Proof.Gen.Kernel
import proofs.«179486_j42442866819240_1_alg».proof.Proof.Gen.Kernel.Skeleton
import proofs.«179486_j42442866819240_1_alg».proof.Proof.Gen.Kernel.Launch
import proofs.«179486_j42442866819240_1_alg».proof.Proof.Gen.Kernel.Points
import proofs.«179486_j42442866819240_1_alg».proof.Proof.Gen.Kernel.Frame
import proofs.«179486_j42442866819240_1_alg».proof.Proof.Gen.KernelIdeal
import proofs.«179486_j42442866819240_1_alg».proof.Proof.Gen.KernelIdeal.Skeleton
import proofs.«179486_j42442866819240_1_alg».proof.Proof.Gen.KernelIdeal.Launch
import proofs.«179486_j42442866819240_1_alg».proof.Proof.Gen.KernelIdeal.Points
import proofs.«179486_j42442866819240_1_alg».proof.Proof.Gen.KernelIdeal.Frame
import proofs.«179486_j42442866819240_1_alg».proof.Proof.Gen.ReferenceIdeal
import proofs.«179486_j42442866819240_1_alg».proof.Proof.Gen.Pre_finite_inputs
import proofs.«179486_j42442866819240_1_alg».proof.Proof.Gen.ReferenceIdeal.Run
import proofs.«179486_j42442866819240_1_alg».proof.Proof.Gen.ReferenceIdeal.Read
import proofs.«179486_j42442866819240_1_alg».proof.Proof.Result
import proofs.«179486_j42442866819240_1_alg».proof.Proof.RefValue
import Idealize.ShloMosaic.Adequacy
import Idealize.ShloMosaic.Init

noncomputable section

namespace Cert.Proof

open Idealize.ShloMosaic Idealize.ShloMosaic.TcCoe Idealize.SL.Sem

/-- The three frames: the two kernel programs' are the generated frame certificates, the reference's is its generated
    run with the result dropped. -/
theorem frame_kernel : Cert.frame_Kernel :=
  fun m ρ _ => Cert.Kernel.Gen.frame m ρ
theorem frame_kernelIdeal : Cert.frame_KernelIdeal :=
  fun m ρ _ => Cert.KernelIdeal.Gen.frame m ρ
theorem frame_reference : Cert.frame_ReferenceIdeal :=
  fun m ρ _ => (θ_run Cert.ReferenceIdeal.defs _ _).mono (fun _ h c => (h c).2) (Cert.ReferenceIdeal.Value.run (F := Ideal) m ρ)

/-- At the exact values both programs end with the specified loss of the (agreeing) arguments. -/
theorem algebraic : Cert.algebraic_KernelIdeal_ReferenceIdeal := by
  intro m ρ m' ρ' _ hagree
  refine ⟨_, Cert.Contrast.Run.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.Contrast.Ref.reference_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
